-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S16x4096 .f32) (main_arg3 : FVec F S4096x16 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S4096x1 : Shape := ⟨2, ![4096, 1]⟩
abbrev S512x4096 : Shape := ⟨2, ![512, 4096]⟩
abbrev S512x16 : Shape := ⟨2, ![512, 16]⟩
abbrev S512x1 : Shape := ⟨2, ![512, 1]⟩
abbrev S512 : Shape := ⟨1, ![512]⟩
abbrev S1x4096 : Shape := ⟨2, ![1, 4096]⟩
abbrev S1024x4096 : Shape := ⟨2, ![1024, 4096]⟩
abbrev S1x1024 : Shape := ⟨2, ![1, 1024]⟩
abbrev S1024x1024 : Shape := ⟨2, ![1024, 1024]⟩

abbrev nBuf : Space → Nat
  | .hbm => 13
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S8192x4096, .f32⟩
  | .hbm, ⟨6, _⟩ => ⟨S4096x1, .f32⟩
  | .hbm, ⟨7, _⟩ => ⟨S4096x4096, .bf16⟩
  | .hbm, ⟨8, _⟩ => ⟨S4096x1, .f32⟩
  | .hbm, ⟨9, _⟩ => ⟨S1x4096, .f32⟩
  | .hbm, ⟨10, _⟩ => ⟨S8192x4096, .bf16⟩
  | .hbm, ⟨11, _⟩ => ⟨S8192x4096, .f32⟩
  | .hbm, ⟨12, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S16x4096, .f32⟩
  | .local _ .vmem, ⟨3, _⟩ => ⟨S512x16, .f32⟩
  | .local _ .vmem, ⟨4, _⟩ => ⟨S512x16, .f32⟩
  | .local _ .vmem, ⟨5, _⟩ => ⟨S512x1, .f32⟩
  | .local _ .vmem, ⟨6, _⟩ => ⟨S512x1, .f32⟩
  | .local _ .vmem, ⟨7, _⟩ => ⟨S512x4096, .bf16⟩
  | .local _ .vmem, ⟨8, _⟩ => ⟨S512x4096, .bf16⟩
  | .local _ .vmem, ⟨9, _⟩ => ⟨S512x1, .f32⟩
  | .local _ .vmem, ⟨10, _⟩ => ⟨S512x1, .f32⟩
  | .local _ .vmem, ⟨11, _⟩ => ⟨S1024x4096, .bf16⟩
  | .local _ .vmem, ⟨12, _⟩ => ⟨S1024x4096, .bf16⟩
  | .local _ .vmem, ⟨13, _⟩ => ⟨S1024x4096, .bf16⟩
  | .local _ .vmem, ⟨14, _⟩ => ⟨S1024x4096, .bf16⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x4096_S8192x4096 : S4x2048x4096.ShapeCasts S8192x4096
  shapeCasts_S4096_S4096x1 : S4096.ShapeCasts S4096x1
  inb_S512x4096_S512x4096_0_0 : ∀ a, (![0, 0] : Fin 2 → Nat) a + S512x4096.size a ≤ S512x4096.size a
  h_S512x4096 : 0 < S512x4096.numel
  inb_S512x16_S512x16_0_0 : ∀ a, (![0, 0] : Fin 2 → Nat) a + S512x16.size a ≤ S512x16.size a
  h_S512x16 : 0 < S512x16.numel
  inb_S16x4096_S16x4096_0_0 : ∀ a, (![0, 0] : Fin 2 → Nat) a + S16x4096.size a ≤ S16x4096.size a
  h_S16x4096 : 0 < S16x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096x1_S1x4096 : S4096x1.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S8192x4096_S4x2048x4096 : S8192x4096.ShapeCasts S4x2048x4096
  dot_S512x16_S16x4096_S512x4096_1_0_0_1_n_n_wf : DotDims.WF S512x16 S16x4096 S512x4096 [1] [0] [0] [1] [] []
  dot_S1024x4096_S1024x4096_S1024x1024_1_1_0_0_n_n_wf : DotDims.WF S1024x4096 S1024x4096 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .f32 = 32 ∨ (Rect.block (s := S4096x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .bf16 = 32 ∨ (Rect.block (s := S4096x4096) S512x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf
def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S512x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S8192x16 : Shape := ⟨2, ![8192, 16]⟩
abbrev S_ : Shape := ⟨0, ![]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S8192x4096, .f32⟩
  | .hbm, ⟨6, _⟩ => ⟨S4096x16, .f32⟩
  | .hbm, ⟨7, _⟩ => ⟨S8192x16, .f32⟩
  | .hbm, ⟨8, _⟩ => ⟨S16x4096, .f32⟩
  | .hbm, ⟨9, _⟩ => ⟨S8192x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096x4096, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  shapeCasts_S4x2048x4096_S8192x4096 : S4x2048x4096.ShapeCasts S8192x4096
  transposes_S16x4096_S4096x16_1_0 : S16x4096.Transposes [1, 0] S4096x16
  transposes_S4096x16_S16x4096_1_0 : S4096x16.Transposes [1, 0] S16x4096
  reducesTo_S4096x4096_S4096_d1 : S4096x4096.ReducesTo [1] S4096
  h_S_ : 0 < S_.numel
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []
  dot_S4096x16_S16x4096_S4096x4096_1_0_0_1_n_n_wf : DotDims.WF S4096x16 S16x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KernelRun.lean ====
/-
  The idealized kernel program run from launch to return, with its RESULT kept.

  The program is two pipelined regions among three stretches of host operations. Its run is followed boundary by
  boundary: the buffer contents at each boundary are a fold from the launch memory (a stretch applies its host
  operations; a region leaves its output arrays at what its write-backs fold to and every other buffer as entered).
  At the last boundary every unscoped buffer holds the last fold's contents. The frame keeps of that only the five
  argument arrays; here the result buffer is kept as well, at the last fold's contents, which the value modules then
  unwind down to the arguments.
-/
import proofs.«126684_j55087250538729_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the five argument arrays end as launched. -/
theorem run_result : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Whole

end
-- ==== Proof.Dots.lean ====
/-
  The kernel's two matrix products read at one output entry.

  Both accumulate into a zero block, so at the ideal values each is a plain sum over the one contracted axis of the
  products of the operands' entries. The low-rank update contracts the columns of the left operand with the ROWS of
  the right one: entry (p, q) is the sum over r of L (p, r) * R (r, q). The main product contracts the columns of
  both operands, the right one being stored row per output feature: entry (p, q) is the sum over k of
  L (p, k) * R (q, k). The contraction index of the dimension numbers is identified with its one coordinate.
-/
import proofs.«126684_j55087250538729_2_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Idealize.ShloMosaic Idealize.ShloMosaic.ValueIdx

/-! ## The low-rank update: [512, 16] times [16, 4096] -/

theorem upd_lhs0 (i : S512x4096.Idx) (q : dot_S512x16_S16x4096_S512x4096_1_0_0_1_n_n.contr.Idx) :
    (dot_S512x16_S16x4096_S512x4096_1_0_0_1_n_n.lhsIdx i q 0).val = (i 0).val := by
  unfold DotDims.lhsIdx
  rw [dif_neg (show ¬(0 : Fin S512x16.rank) ∈ dot_S512x16_S16x4096_S512x4096_1_0_0_1_n_n.lhsBatch by decide),
    dif_pos (show (0 : Fin S512x16.rank) ∈ dot_S512x16_S16x4096_S512x4096_1_0_0_1_n_n.lhsNonContracting by decide)]
  rfl
theorem upd_lhs1 (i : S512x4096.Idx) (q : dot_S512x16_S16x4096_S512x4096_1_0_0_1_n_n.contr.Idx) :
    (dot_S512x16_S16x4096_S512x4096_1_0_0_1_n_n.lhsIdx i q 1).val = (q ⟨0, by decide⟩).val :=
  dot_S512x16_S16x4096_S512x4096_1_0_0_1_n_n.lhsIdx_val_of_single rfl i q
theorem upd_rhs0 (i : S512x4096.Idx) (q : dot_S512x16_S16x4096_S512x4096_1_0_0_1_n_n.contr.Idx) :
    (dot_S512x16_S16x4096_S512x4096_1_0_0_1_n_n.rhsIdx i q 0).val = (q ⟨0, by decide⟩).val :=
  dot_S512x16_S16x4096_S512x4096_1_0_0_1_n_n.rhsIdx_val_of_single rfl i q
theorem upd_rhs1 (i : S512x4096.Idx) (q : dot_S512x16_S16x4096_S512x4096_1_0_0_1_n_n.contr.Idx) :
    (dot_S512x16_S16x4096_S512x4096_1_0_0_1_n_n.rhsIdx i q 1).val = (i 1).val := by
  unfold DotDims.rhsIdx
  rw [dif_neg (show ¬(1 : Fin S16x4096.rank) ∈ dot_S512x16_S16x4096_S512x4096_1_0_0_1_n_n.rhsBatch by decide),
    dif_pos (show (1 : Fin S16x4096.rank) ∈ dot_S512x16_S16x4096_S512x4096_1_0_0_1_n_n.rhsNonContracting by decide)]
  rfl

/-- The low-rank update at (p, q): the sum over the rank of L (p, r) * R (r, q). -/
theorem update_apply (l : FVec Ideal S512x16 .f32) (r : FVec Ideal S16x4096 .f32) (i : S512x4096.Idx) :
    matmul dot_S512x16_S16x4096_S512x4096_1_0_0_1_n_n none l r (constant S512x4096 .f32 0x00000000#32) i
      = ∑ k : Fin 16, l (ix2 (i 0 : Fin 512) k) * r (ix2 k (i 1 : Fin 4096)) := by
  simp only [matmul]
  rw [Ideal.matmul_constant_zero_apply,
    ← Equiv.sum_comp (contrEquiv1 dot_S512x16_S16x4096_S512x4096_1_0_0_1_n_n 16 rfl rfl).symm]
  refine Finset.sum_congr rfl fun k _ => ?_
  have hk := contrEquiv1_symm_val dot_S512x16_S16x4096_S512x4096_1_0_0_1_n_n 16 rfl rfl k
  have el : dot_S512x16_S16x4096_S512x4096_1_0_0_1_n_n.lhsIdx i
      ((contrEquiv1 dot_S512x16_S16x4096_S512x4096_1_0_0_1_n_n 16 rfl rfl).symm k) = ix2 (i 0 : Fin 512) k :=
    funext fun a => Fin.ext (by
      match a with
      | ⟨0, _⟩ => exact upd_lhs0 _ _
      | ⟨1, _⟩ => exact (upd_lhs1 _ _).trans hk)
  have er : dot_S512x16_S16x4096_S512x4096_1_0_0_1_n_n.rhsIdx i
      ((contrEquiv1 dot_S512x16_S16x4096_S512x4096_1_0_0_1_n_n 16 rfl rfl).symm k) = ix2 k (i 1 : Fin 4096) :=
    funext fun a => Fin.ext (by
      match a with
      | ⟨0, _⟩ => exact (upd_rhs0 _ _).trans hk
      | ⟨1, _⟩ => exact upd_rhs1 _ _)
  rw [el, er]
  rfl

/-! ## The main product: [1024, 4096] times the transpose of [1024, 4096] -/

theorem gemm_lhs0 (i : S1024x1024.Idx) (q : dot_S1024x4096_S1024x4096_S1024x1024_1_1_0_0_n_n.contr.Idx) :
    (dot_S1024x4096_S1024x4096_S1024x1024_1_1_0_0_n_n.lhsIdx i q 0).val = (i 0).val := by
  unfold DotDims.lhsIdx
  rw [dif_neg (show ¬(0 : Fin S1024x4096.rank) ∈ dot_S1024x4096_S1024x4096_S1024x1024_1_1_0_0_n_n.lhsBatch by decide),
    dif_pos (show (0 : Fin S1024x4096.rank) ∈ dot_S1024x4096_S1024x4096_S1024x1024_1_1_0_0_n_n.lhsNonContracting by decide)]
  rfl
theorem gemm_lhs1 (i : S1024x1024.Idx) (q : dot_S1024x4096_S1024x4096_S1024x1024_1_1_0_0_n_n.contr.Idx) :
    (dot_S1024x4096_S1024x4096_S1024x1024_1_1_0_0_n_n.lhsIdx i q 1).val = (q ⟨0, by decide⟩).val :=
  dot_S1024x4096_S1024x4096_S1024x1024_1_1_0_0_n_n.lhsIdx_val_of_single rfl i q
theorem gemm_rhs0 (i : S1024x1024.Idx) (q : dot_S1024x4096_S1024x4096_S1024x1024_1_1_0_0_n_n.contr.Idx) :
    (dot_S1024x4096_S1024x4096_S1024x1024_1_1_0_0_n_n.rhsIdx i q 0).val = (i 1).val := by
  unfold DotDims.rhsIdx
  rw [dif_neg (show ¬(0 : Fin S1024x4096.rank) ∈ dot_S1024x4096_S1024x4096_S1024x1024_1_1_0_0_n_n.rhsBatch by decide),
    dif_pos (show (0 : Fin S1024x4096.rank) ∈ dot_S1024x4096_S1024x4096_S1024x1024_1_1_0_0_n_n.rhsNonContracting by decide)]
  rfl
theorem gemm_rhs1 (i : S1024x1024.Idx) (q : dot_S1024x4096_S1024x4096_S1024x1024_1_1_0_0_n_n.contr.Idx) :
    (dot_S1024x4096_S1024x4096_S1024x1024_1_1_0_0_n_n.rhsIdx i q 1).val = (q ⟨0, by decide⟩).val :=
  dot_S1024x4096_S1024x4096_S1024x1024_1_1_0_0_n_n.rhsIdx_val_of_single rfl i q

/-- The main product at (p, q): the sum over the input feature k of L (p, k) * R (q, k). -/
theorem gemm_apply (l : FVec Ideal S1024x4096 .bf16) (r : FVec Ideal S1024x4096 .bf16) (i : S1024x1024.Idx) :
    matmul dot_S1024x4096_S1024x4096_S1024x1024_1_1_0_0_n_n none l r (constant S1024x1024 .f32 0x00000000#32) i
      = ∑ k : Fin 4096, l (ix2 (i 0 : Fin 1024) k) * r (ix2 (i 1 : Fin 1024) k) := by
  simp only [matmul]
  rw [Ideal.matmul_constant_zero_apply,
    ← Equiv.sum_comp (contrEquiv1 dot_S1024x4096_S1024x4096_S1024x1024_1_1_0_0_n_n 4096 rfl rfl).symm]
  refine Finset.sum_congr rfl fun k _ => ?_
  have hk := contrEquiv1_symm_val dot_S1024x4096_S1024x4096_S1024x1024_1_1_0_0_n_n 4096 rfl rfl k
  have el : dot_S1024x4096_S1024x4096_S1024x1024_1_1_0_0_n_n.lhsIdx i
      ((contrEquiv1 dot_S1024x4096_S1024x4096_S1024x1024_1_1_0_0_n_n 4096 rfl rfl).symm k) = ix2 (i 0 : Fin 1024) k :=
    funext fun a => Fin.ext (by
      match a with
      | ⟨0, _⟩ => exact gemm_lhs0 _ _
      | ⟨1, _⟩ => exact (gemm_lhs1 _ _).trans hk)
  have er : dot_S1024x4096_S1024x4096_S1024x1024_1_1_0_0_n_n.rhsIdx i
      ((contrEquiv1 dot_S1024x4096_S1024x4096_S1024x1024_1_1_0_0_n_n 4096 rfl rfl).symm k) = ix2 (i 1 : Fin 1024) k :=
    funext fun a => Fin.ext (by
      match a with
      | ⟨0, _⟩ => exact gemm_rhs0 _ _
      | ⟨1, _⟩ => exact (gemm_rhs1 _ _).trans hk)
  rw [el, er]
  rfl

end Cert.KernelIdeal.Dots

end
-- ==== Proof.Payloads.lean ====
/-
  What each kernel body computes, read at one entry of its block.

  First region, on a block of 512 rows: from the base-weight block w, the low-rank column block b and the whole low-rank
  row factor a, the adapted block is  w (p, q) + sum over r of b (p, r) * a (r, q);  the stored weight block is that
  value with its float format changed (no change at the ideal values); the stored scale column at row p is the
  magnitude g (p, 0) divided by the square root of the sum over q of the adapted entry squared. The row sum is a lane
  reduction from a zero accumulator, then cast from [512] to a column [512, 1].

  Second region, on a 1024 by 1024 tile: the product of the token block with the rows of the weight block, each
  column then multiplied by the scale row broadcast down the tile.
-/
import proofs.«126684_j55087250538729_2_alg».proof.Proof.Gen.KernelIdeal.Skeleton
import proofs.«126684_j55087250538729_2_alg».proof.Proof.Dots
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-! ## First region -/

/-- The adapted block at an entry: the base entry plus the rank-16 update. -/
theorem adapted_apply (w : Vec Ideal S512x4096 .f32) (b : Vec Ideal S512x16 .f32) (a : Vec Ideal S16x4096 .f32)
    (y : S512x4096.Idx) :
    k0_pay1 w b a y = w y + ∑ r : Fin 16, b (ix2 (y 0 : Fin 512) r) * a (ix2 r (y 1 : Fin 4096)) := by
  unfold k0_pay1
  exact congrArg (w y + ·) (Dots.update_apply b a y)

/-- The stored weight block is the adapted block: the change of float format is the identity at the ideal values. -/
theorem stored_apply (w : Vec Ideal S512x4096 .f32) (b : Vec Ideal S512x16 .f32) (a : Vec Ideal S16x4096 .f32)
    (y : S512x4096.Idx) : k0_pay3 w b a y = k0_pay1 w b a y := rfl

/-- A lane reduction by addition from the zero accumulator, at row p: the sum over the lanes. -/
theorem rowSum_apply (src : FVec Ideal S512x4096 .f32) (p : Fin 512) :
    multiReduction .add [1] S512 src 0x00000000#32 reduces_S512x4096_S512 (.inl rfl) rfl (ix1 p)
      = ∑ k : Fin 4096, src (ix2 p k) := by
  refine (Ideal.multiReduction_add_single src 0x00000000#32 reduces_S512x4096_S512 (.inl rfl) rfl (ix1 p)).trans ?_
  exact Finset.sum_congr rfl fun k _ => congrArg src (funext fun a => Fin.ext (by
    match a with
    | ⟨0, _⟩ => rfl
    | ⟨1, _⟩ => rfl))

/-- The cast of a vector of 512 entries to a column reads, at row p, the vector's entry p. -/
theorem column_apply {α : Type} (v : S512.Idx → α) (y : S512x1.Idx) :
    shapeCast S512x1 v shapeCasts_S512_S512x1 y = v (ix1 (y 0 : Fin 512)) := by
  refine shapeCast_apply v shapeCasts_S512_S512x1 y (ix1 (y 0 : Fin 512)) ?_
  rewrite [Shape.rowMajor_val_one, Shape.rowMajor_val_two]
  have h1 : (y 1).val < 1 := (y 1).isLt
  show (y 0).val = (y 0).val * 1 + (y 1).val
  omega

/-- The stored scale column at row p: the magnitude over the square root of the row's sum of squares. -/
theorem scale_apply (w : Vec Ideal S512x4096 .f32) (b : Vec Ideal S512x16 .f32) (a : Vec Ideal S16x4096 .f32)
    (g : Vec Ideal S512x1 .f32) (y : S512x1.Idx) :
    k0_pay2 w b a g y = Ideal.div (g y)
      (Ideal.sqrt (∑ k : Fin 4096, k0_pay1 w b a (ix2 (y 0 : Fin 512) k) * k0_pay1 w b a (ix2 (y 0 : Fin 512) k))) := by
  unfold k0_pay2
  refine congrArg₂ Ideal.div (congrFun (shapeCast_self g shapeCasts_S512x1_S512x1) y) (congrArg Ideal.sqrt ?_)
  refine (column_apply _ y).trans ?_
  exact rowSum_apply (mulf (k0_pay1 w b a) (k0_pay1 w b a)) (y 0 : Fin 512)

/-! ## Second region -/

/-- The tile at (p, q): the token row p against the weight row q, times the scale of column q. -/
theorem tile_apply (x : FVec Ideal S1024x4096 .bf16) (aw : FVec Ideal S1024x4096 .bf16) (ms : FVec Ideal S1x1024 .f32)
    (y : S1024x1024.Idx) :
    (k1_pay1 (F := Ideal) x aw ms y : EReal)
      = (∑ k : Fin 4096, (x (ix2 (y 0 : Fin 1024) k) : EReal) * (aw (ix2 (y 1 : Fin 1024) k) : EReal))
        * (ms (ix2 (0 : Fin 1) (y 1 : Fin 1024)) : EReal) := by
  unfold k1_pay1
  refine congrArg₂ (· * ·) ?_ ?_
  · show matmul dot_S1024x4096_S1024x4096_S1024x1024_1_1_0_0_n_n none (shapeCast S1024x4096 x shapeCasts_S1024x4096_S1024x4096)
        (shapeCast S1024x4096 aw shapeCasts_S1024x4096_S1024x4096) (constant S1024x1024 .f32 0x00000000#32) y = _
    rw [shapeCast_self x, shapeCast_self aw]
    exact Dots.gemm_apply x aw y
  · show broadcastTo S1024x1024 (shapeCast S1x1024 ms shapeCasts_S1x1024_S1x1024) broadcasts_S1x1024_S1024x1024 y = _
    rw [shapeCast_self ms]
    exact (congrArg (broadcastTo S1024x1024 ms broadcasts_S1x1024_S1024x1024) (eq_ix2 y)).trans
      (broadcastTo_1b_ab_apply ms broadcasts_S1x1024_S1024x1024 (y 0 : Fin 1024) (y 1 : Fin 1024))

end Cert.KernelIdeal.Pay

end
-- ==== Proof.Spec.lean ====
/-
  The mathematics of the weight-decomposed low-rank linear layer, with no program in sight.

  Arrays are functions from multi-indices to extended reals. From a base weight W [4096, 4096], a low-rank pair
  B [4096, 16], A [16, 4096], a magnitude vector g [4096] and tokens X [8192, 4096]:

    adapted o k = W o k + sum over r of B o r * A r k                     (the adapted weight)
    scale o     = g o / sqrt (sum over k of adapted o k * adapted o k)    (magnitude over the row's Euclidean norm)

  The result can be arranged in two ways. FOLDED: one product of the tokens with the adapted weight,

    folded t o  = (sum over k of X t k * adapted o k) * scale o,

  and SPLIT: the base product plus the low-rank path taken through the rank-16 bottleneck,

    split t o   = (sum over k of X t k * W o k + sum over r of (sum over k of X t k * A r k) * B o r) * scale o.

  The scale is the same factor in both, so the two agree as soon as the two accumulators agree; that is
  distributivity of the product over the inner sum followed by an exchange of the two summations, which holds on
  the reals. On the extended reals distributivity fails at the infinities, so the law is stated for entries of
  X, W, A and B that are real numbers; nothing is asked of g, and nothing of the scale, which may be infinite.
-/
import Idealize.ShloMosaic.PureOps.Ideal
import Idealize.ShloMosaic.Lib.ValueIdx

noncomputable section

open scoped BigOperators

namespace Cert.Dora

open Idealize.ShloMosaic Idealize.ShloMosaic.ValueIdx

/-! ## Sums of reals inside the extended reals -/

/-- The inclusion of the reals into the extended reals passes through a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law on the reals: a product with (w + b a) summed over k is the product with w plus the low-rank
    path, the two summations exchanged. -/
theorem real_law {K R : Type*} [Fintype K] [Fintype R] (x w : K → ℝ) (a : R → K → ℝ) (b : R → ℝ) :
    ∑ k, x k * (w k + ∑ r, b r * a r k) = ∑ k, x k * w k + ∑ r, (∑ k, x k * a r k) * b r := by
  simp only [mul_add, Finset.sum_add_distrib, Finset.mul_sum, Finset.sum_mul]
  congr 1
  rw [Finset.sum_comm]
  exact Finset.sum_congr rfl fun r _ => Finset.sum_congr rfl fun k _ => by ring

/-- The same law on extended reals that are real numbers. -/
theorem ereal_law {K R : Type*} [Fintype K] [Fintype R] (x w : K → EReal) (a : R → K → EReal) (b : R → EReal)
    (hx : ∀ k, ∃ v : ℝ, x k = v) (hw : ∀ k, ∃ v : ℝ, w k = v) (ha : ∀ r k, ∃ v : ℝ, a r k = v)
    (hb : ∀ r, ∃ v : ℝ, b r = v) :
    ∑ k, x k * (w k + ∑ r, b r * a r k) = ∑ k, x k * w k + ∑ r, (∑ k, x k * a r k) * b r := by
  choose x' hx using hx
  choose w' hw using hw
  choose a' ha using ha
  choose b' hb using hb
  simp only [hx, hw, ha, hb, ← EReal.coe_mul, ← coe_sum, ← EReal.coe_add]
  exact congrArg _ (real_law x' w' a' b')

/-! ## The layer -/

/-- A rank-2 array of extended reals. -/
abbrev Mat (a b : ℕ) := (⟨2, ![a, b]⟩ : Shape).Idx → EReal
/-- A rank-1 array of extended reals. -/
abbrev Vec1 (a : ℕ) := (⟨1, ![a]⟩ : Shape).Idx → EReal

/-- The adapted weight at row o, column k: the base weight plus the rank-16 update. -/
def adapted (W : Mat 4096 4096) (A : Mat 16 4096) (B : Mat 4096 16) (o k : Fin 4096) : EReal :=
  W (ix2 o k) + ∑ r : Fin 16, B (ix2 o r) * A (ix2 r k)

/-- The adapted weight as an array. -/
def adaptedMat (W : Mat 4096 4096) (A : Mat 16 4096) (B : Mat 4096 16) : Mat 4096 4096 :=
  fun i => adapted W A B (i 0 : Fin 4096) (i 1 : Fin 4096)

/-- The magnitude of output feature o (the magnitudes given as a function of the feature) over the Euclidean norm
    of the adapted weight's row o. -/
def scale (W : Mat 4096 4096) (A : Mat 16 4096) (B : Mat 4096 16) (g : Fin 4096 → EReal) (o : Fin 4096) : EReal :=
  Ideal.div (g o) (Ideal.sqrt (∑ k : Fin 4096, adapted W A B o k * adapted W A B o k))

/-- Tokens times the rows of a weight matrix, each output feature then multiplied by its factor. -/
def gemmScaled (X : Mat 8192 4096) (Wt : Mat 4096 4096) (s : Fin 4096 → EReal) : Mat 8192 4096 :=
  fun i => (∑ k : Fin 4096, X (ix2 (i 0 : Fin 8192) k) * Wt (ix2 (i 1 : Fin 4096) k)) * s (i 1 : Fin 4096)

/-- FOLDED: the tokens times the adapted weight, rescaled per output feature. -/
def folded (X : Mat 8192 4096) (W : Mat 4096 4096) (A : Mat 16 4096) (B : Mat 4096 16) (g : Fin 4096 → EReal) :
    Mat 8192 4096 :=
  gemmScaled X (adaptedMat W A B) (scale W A B g)

/-- SPLIT: the base product plus the low-rank path through the bottleneck, rescaled per output feature. -/
def split (X : Mat 8192 4096) (W : Mat 4096 4096) (A : Mat 16 4096) (B : Mat 4096 16) (g : Fin 4096 → EReal) :
    Mat 8192 4096 :=
  fun i => ((∑ k : Fin 4096, X (ix2 (i 0 : Fin 8192) k) * W (ix2 (i 1 : Fin 4096) k))
      + ∑ r : Fin 16, (∑ k : Fin 4096, X (ix2 (i 0 : Fin 8192) k) * A (ix2 r k)) * B (ix2 (i 1 : Fin 4096) r))
    * scale W A B g (i 1 : Fin 4096)

/-- Every entry of an array is a real number. -/
def Finite {s : Shape} (x : s.Idx → EReal) : Prop := ∀ i, ∃ v : ℝ, x i = v

/-- The two arrangements are one array when the tokens, the base weight and the low-rank pair hold real numbers. -/
theorem folded_eq_split (X : Mat 8192 4096) (W : Mat 4096 4096) (A : Mat 16 4096) (B : Mat 4096 16) (g : Fin 4096 → EReal)
    (hX : Finite X) (hW : Finite W) (hA : Finite A) (hB : Finite B) :
    folded X W A B g = split X W A B g := by
  funext i
  unfold folded gemmScaled split
  refine congrArg (· * scale W A B g (i 1 : Fin 4096)) ?_
  show ∑ k : Fin 4096, X (ix2 (i 0 : Fin 8192) k) * adapted W A B (i 1 : Fin 4096) k = _
  unfold adapted
  exact ereal_law (fun k => X (ix2 (i 0 : Fin 8192) k)) (fun k => W (ix2 (i 1 : Fin 4096) k))
    (fun r k => A (ix2 r k)) (fun r => B (ix2 (i 1 : Fin 4096) r))
    (fun k => hX _) (fun k => hW _) (fun r k => hA _) (fun r => hB _)

end Cert.Dora

end
-- ==== Proof.Region0Value.lean ====
/-
  The first region's two output arrays after its eight grid points, for ANY contents the region is entered with.

  Grid point t works on rows 512 t .. 512 t + 511. It reads the base-weight rows, the low-rank column rows and the
  magnitude rows of that range, and the whole low-rank row factor. An entry (p, q) of a block is entry (512 t + p, q)
  of its array, so the adapted block at (p, q) is the adapted weight at (512 t + p, q), and what the point writes
  back is, for the weight output, that block of the adapted-weight array, and for the scale output, that block of
  the column  o |-> magnitude o / sqrt (sum over k of adapted o k squared).  The eight row ranges tile both arrays,
  so after the region each array IS that function of the entry contents.
-/
import proofs.«126684_j55087250538729_2_alg».proof.Proof.Gen.KernelIdeal.Frame
import proofs.«126684_j55087250538729_2_alg».proof.Proof.Payloads
import proofs.«126684_j55087250538729_2_alg».proof.Proof.Spec

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: every row-blocked window moves with the weight output's row block, on column
    block zero; the low-rank row factor stays on its one block; there are eight row blocks. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = win0_4.index t (0 : Fin 2) ∧ win0_3.index t (1 : Fin 2) = 0
    ∧ win0_5.index t (0 : Fin 2) = win0_4.index t (0 : Fin 2) ∧ win0_5.index t (1 : Fin 2) = 0
    ∧ win0_4.index t (1 : Fin 2) = 0 ∧ win0_4.index t (0 : Fin 2) ≤ 7 :=
  (by decide +kernel : ∀ t : Fin grid0.N, _)

/-- Every row block is some point's. -/
theorem idx_onto : ∀ q0 : Fin 8, ∃ t : Fin cfg0.N, win0_4.index t (0 : Fin 2) = q0.val :=
  (by decide +kernel : ∀ q0 : Fin 8, ∃ t : Fin grid0.N, win0_4.index t (0 : Fin 2) = q0.val)

/-! ## A block entry is an array entry -/

/-- The base-weight block at (p, q) is the array at (512 t + p, q). -/
theorem read_base (c : Dev nD) (t : Fin cfg0.N) (y : S512x4096.Idx) (i : S4096x4096.Idx)
    (h0 : (i 0).val = win0_4.index t (0 : Fin 2) * 512 + (y 0).val) (h1 : (i 1).val = (y 1).val) :
    iblk0 V c 0 t y = V c main_arg1 i := by
  obtain ⟨e0, e1, -⟩ := idx_facts t
  show V c main_arg1 (((cfg0.win 0).blk t).view.emb y) = V c main_arg1 i
  refine congrArg (V c main_arg1) (funext fun a => Fin.ext ?_)
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- The low-rank row factor's one block is the whole array. -/
theorem read_rowFactor (c : Dev nD) (t : Fin cfg0.N) (y : S16x4096.Idx) (i : S16x4096.Idx)
    (h0 : (i 0).val = (y 0).val) (h1 : (i 1).val = (y 1).val) :
    iblk0 V c 1 t y = V c main_arg2 i := by
  obtain ⟨-, -, e0, e1, -⟩ := idx_facts t
  show V c main_arg2 (((cfg0.win 1).blk t).view.emb y) = V c main_arg2 i
  refine congrArg (V c main_arg2) (funext fun a => Fin.ext ?_)
  match a with
  | ⟨0, _⟩ => show win0_1.index t (0 : Fin 2) * 16 + 1 * (y 0).val = (i 0).val; omega
  | ⟨1, _⟩ => show win0_1.index t (1 : Fin 2) * 4096 + 1 * (y 1).val = (i 1).val; omega

/-- The low-rank column block at (p, r) is the array at (512 t + p, r). -/
theorem read_colFactor (c : Dev nD) (t : Fin cfg0.N) (y : S512x16.Idx) (i : S4096x16.Idx)
    (h0 : (i 0).val = win0_4.index t (0 : Fin 2) * 512 + (y 0).val) (h1 : (i 1).val = (y 1).val) :
    iblk0 V c 2 t y = V c main_arg3 i := by
  obtain ⟨-, -, -, -, e0, e1, -⟩ := idx_facts t
  show V c main_arg3 (((cfg0.win 2).blk t).view.emb y) = V c main_arg3 i
  refine congrArg (V c main_arg3) (funext fun a => Fin.ext ?_)
  match a with
  | ⟨0, _⟩ => show win0_2.index t (0 : Fin 2) * 512 + 1 * (y 0).val = (i 0).val; omega
  | ⟨1, _⟩ => show win0_2.index t (1 : Fin 2) * 16 + 1 * (y 1).val = (i 1).val; omega

/-- The magnitude column block at (p, 0) is the column at (512 t + p, 0). -/
theorem read_magnitude (c : Dev nD) (t : Fin cfg0.N) (y : S512x1.Idx) (i : S4096x1.Idx)
    (h0 : (i 0).val = win0_4.index t (0 : Fin 2) * 512 + (y 0).val) (h1 : (i 1).val = (y 1).val) :
    iblk0 V c 3 t y = V c main_v1 i := by
  obtain ⟨-, -, -, -, -, -, e0, e1, -⟩ := idx_facts t
  show V c main_v1 (((cfg0.win 3).blk t).view.emb y) = V c main_v1 i
  refine congrArg (V c main_v1) (funext fun a => Fin.ext ?_)
  match a with
  | ⟨0, _⟩ => show win0_3.index t (0 : Fin 2) * 512 + 1 * (y 0).val = (i 0).val; omega
  | ⟨1, _⟩ => show win0_3.index t (1 : Fin 2) * 1 + 1 * (y 1).val = (i 1).val; omega

/-- The adapted block at a block entry is the adapted weight at the array's row and column. -/
theorem adapted_at (c : Dev nD) (t : Fin cfg0.N) (y : S512x4096.Idx) (o k : Fin 4096)
    (ho : o.val = win0_4.index t (0 : Fin 2) * 512 + (y 0).val) (hk : k.val = (y 1).val) :
    k0_pay1 (iblk0 V c 0 t) (iblk0 V c 2 t) (iblk0 V c 1 t) y
      = Dora.adapted (V c main_arg1) (V c main_arg2) (V c main_arg3) o k := by
  refine (Pay.adapted_apply (iblk0 V c 0 t) (iblk0 V c 2 t) (iblk0 V c 1 t) y).trans ?_
  unfold Dora.adapted
  refine congrArg₂ (· + ·) (read_base V c t y (ix2 o k) ho hk) (Finset.sum_congr rfl fun r _ => ?_)
  exact congrArg₂ (· * ·) (read_colFactor V c t (ix2 (y 0 : Fin 512) r) (ix2 o r) ho rfl)
    (read_rowFactor V c t (ix2 r (y 1 : Fin 4096)) (ix2 r k) rfl hk)

/-! ## The weight output -/

/-- What point t writes back to the weight output is block t of the adapted-weight array. -/
theorem flushed_weight (c : Dev nD) (t : Fin cfg0.N) :
    (dat0 V c).flushed 4 t = ((cfg0.win 4).blk t).view.read (Elt Ideal)
      (Dora.adaptedMat (V c main_arg1) (V c main_arg2) (V c main_arg3)) := by
  show (cfg0.win 4).cut (grid0.coords t) ((dat0 V c).after 4 t) = _
  rw [after0_4]
  unfold out0_4
  rw [View.canon_unit_zero hz]
  simp only [View.ld_unit_zero (S := S512x4096) hz, View.ld_unit_zero (S := S512x16) hz, View.ld_unit_zero (S := S16x4096) hz]
  obtain ⟨-, -, -, -, -, -, -, -, -, -, e1, -⟩ := idx_facts t
  funext j
  show k0_pay3 (iblk0 V c 0 t) (iblk0 V c 2 t) (iblk0 V c 1 t) j
    = Dora.adaptedMat (V c main_arg1) (V c main_arg2) (V c main_arg3) (((cfg0.win 4).blk t).view.emb j)
  refine (Pay.stored_apply (iblk0 V c 0 t) (iblk0 V c 2 t) (iblk0 V c 1 t) j).trans ?_
  unfold Dora.adaptedMat
  refine adapted_at V c t j _ _ ?_ ?_
  · show win0_4.index t (0 : Fin 2) * 512 + 1 * (j 0).val = _; omega
  · show win0_4.index t (1 : Fin 2) * 4096 + 1 * (j 1).val = _; omega

/-- An index of the weight output is in point t's block iff each coordinate is in the block's range. -/
theorem mem_blk_weight (t : Fin cfg0.N) (i : S4096x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v2_0).slice (win0_4.rect t)).set ↔ _
  rw [View.set_slice_whole, Rect.mem_set_unit]
  exact Iff.rfl

/-- The eight row blocks cover the weight output. -/
theorem cover_weight (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 512, by omega⟩
  have q0 : win0_4.index t (0 : Fin 2) = (i 0).val / 512 := ht
  obtain ⟨-, -, -, -, -, -, -, -, -, -, e1, -⟩ := idx_facts t
  refine ⟨t, flush0_4 t, ?_⟩
  rw [mem_blk_weight]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 4096 ≤ (i 1).val ∧ (i 1).val < win0_4.index t (1 : Fin 2) * 4096 + 4096; omega

/-- After the region the weight output is the adapted-weight array of the entry contents. -/
theorem weight_final (c : Dev nD) :
    (dat0 V c).arrAt 4 cfg0.N = Dora.adaptedMat (V c main_arg1) (V c main_arg2) (V c main_arg3) :=
  (dat0 V c).arrAt_eq_of_cover 4 _ (fun t _ => flushed_weight V c t) cover_weight

/-! ## The scale output -/

/-- The scale column of the entry contents: magnitude over the adapted row's Euclidean norm. -/
def scaleCol (c : Dev nD) : S4096x1.Idx → EReal := fun i =>
  Dora.scale (V c main_arg1) (V c main_arg2) (V c main_arg3) (fun o => V c main_v1 (ix2 o (0 : Fin 1))) (i 0 : Fin 4096)

/-- What point t writes back to the scale output is block t of the scale column. -/
theorem flushed_scale (c : Dev nD) (t : Fin cfg0.N) :
    (dat0 V c).flushed 5 t = ((cfg0.win 5).blk t).view.read (Elt Ideal) (scaleCol V c) := by
  show (cfg0.win 5).cut (grid0.coords t) ((dat0 V c).after 5 t) = _
  rw [after0_5]
  unfold out0_5
  rw [View.canon_unit_zero hz]
  simp only [View.ld_unit_zero (S := S512x4096) hz, View.ld_unit_zero (S := S512x16) hz, View.ld_unit_zero (S := S16x4096) hz,
    View.ld_unit_zero (S := S512x1) hz]
  obtain ⟨-, -, -, -, -, -, -, -, e50, e51, -, -⟩ := idx_facts t
  funext j
  show k0_pay2 (iblk0 V c 0 t) (iblk0 V c 2 t) (iblk0 V c 1 t) (iblk0 V c 3 t) j
    = scaleCol V c (((cfg0.win 5).blk t).view.emb j)
  refine (Pay.scale_apply (iblk0 V c 0 t) (iblk0 V c 2 t) (iblk0 V c 1 t) (iblk0 V c 3 t) j).trans ?_
  have hj1 : (j 1).val < 1 := (j 1).isLt
  have hrow : ((((cfg0.win 5).blk t).view.emb j) 0).val = win0_4.index t (0 : Fin 2) * 512 + (j 0).val := by
    show win0_5.index t (0 : Fin 2) * 512 + 1 * (j 0).val = _; omega
  unfold scaleCol Dora.scale
  refine congrArg₂ Ideal.div (read_magnitude V c t j _ hrow ?_) (congrArg Ideal.sqrt (Finset.sum_congr rfl fun k _ => ?_))
  · show (0 : Fin 1).val = (j 1).val; omega
  · have h := adapted_at V c t (ix2 (j 0 : Fin 512) k) ((((cfg0.win 5).blk t).view.emb j) 0 : Fin 4096) k hrow rfl
    exact congrArg₂ (· * ·) h h

/-- An index of the scale output is in point t's block iff each coordinate is in the block's range. -/
theorem mem_blk_scale (t : Fin cfg0.N) (i : S4096x1.Idx) :
    i ∈ ((cfg0.win 5).blk t).view.set ↔ ∀ a : Fin 2, win0_5.index t a * S512x1.size a ≤ (i a).val
      ∧ (i a).val < win0_5.index t a * S512x1.size a + S512x1.size a := by
  show i ∈ ((View.whole main_v2_1).slice (win0_5.rect t)).set ↔ _
  rw [View.set_slice_whole, Rect.mem_set_unit]
  exact Iff.rfl

/-- The eight row blocks cover the scale output. -/
theorem cover_scale (i : S4096x1.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  obtain ⟨t, ht⟩ := idx_onto ⟨(i 0).val / 512, by omega⟩
  have q0 : win0_4.index t (0 : Fin 2) = (i 0).val / 512 := ht
  obtain ⟨-, -, -, -, -, -, -, -, e50, e51, -, -⟩ := idx_facts t
  refine ⟨t, flush0_5 t, ?_⟩
  rw [mem_blk_scale]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1 ≤ (i 1).val ∧ (i 1).val < win0_5.index t (1 : Fin 2) * 1 + 1; omega

/-- After the region the scale output is the scale column of the entry contents. -/
theorem scale_final (c : Dev nD) : (dat0 V c).arrAt 5 cfg0.N = scaleCol V c :=
  (dat0 V c).arrAt_eq_of_cover 5 _ (fun t _ => flushed_scale V c t) cover_scale

end Cert.KernelIdeal.Region0

end
-- ==== Proof.Region1Value.lean ====
/-
  The second region's output array after its thirty-two grid points, for ANY contents the region is entered with.

  The grid is 8 by 4. Point (a, b) reads token rows 1024 a .. 1024 a + 1023, weight rows 1024 b .. 1024 b + 1023 (the
  weight is stored one row per output feature) and the scale row's columns 1024 b .. 1024 b + 1023, and writes the
  1024 by 1024 tile (a, b) of the output. Entry (p, q) of that tile is the token row 1024 a + p against the weight row
  1024 b + q, times the scale of output feature 1024 b + q: the tile is a block of ONE array, tokens times weight rows
  rescaled per feature. The thirty-two tiles cover the output, so after the region the output IS that array.
-/
import proofs.«126684_j55087250538729_2_alg».proof.Proof.Gen.KernelIdeal.Frame
import proofs.«126684_j55087250538729_2_alg».proof.Proof.Payloads
import proofs.«126684_j55087250538729_2_alg».proof.Proof.Spec

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the token block follows the output tile's row block, the weight block and the scale
    row's column block follow the tile's column block; eight row blocks, four column blocks. -/
theorem idx_facts : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 7 ∧ win1_3.index t (1 : Fin 2) ≤ 3 :=
  (by decide +kernel : ∀ t : Fin grid1.N, _)

/-- Every tile is some point's. -/
theorem idx_onto : ∀ (q0 : Fin 8) (q1 : Fin 4), ∃ t : Fin cfg1.N,
    win1_3.index t (0 : Fin 2) = q0.val ∧ win1_3.index t (1 : Fin 2) = q1.val :=
  (by decide +kernel : ∀ (q0 : Fin 8) (q1 : Fin 4), ∃ t : Fin grid1.N,
    win1_3.index t (0 : Fin 2) = q0.val ∧ win1_3.index t (1 : Fin 2) = q1.val)

/-! ## A block entry is an array entry -/

/-- The token block at (p, k) is the token array at (1024 a + p, k). -/
theorem read_tokens (c : Dev nD) (t : Fin cfg1.N) (y : S1024x4096.Idx) (i : S8192x4096.Idx)
    (h0 : (i 0).val = win1_3.index t (0 : Fin 2) * 1024 + (y 0).val) (h1 : (i 1).val = (y 1).val) :
    iblk1 V c 0 t y = V c main_v4 i := by
  obtain ⟨e0, e1, -⟩ := idx_facts t
  show V c main_v4 (((cfg1.win 0).blk t).view.emb y) = V c main_v4 i
  refine congrArg (V c main_v4) (funext fun a => Fin.ext ?_)
  match a with
  | ⟨0, _⟩ => show win1_0.index t (0 : Fin 2) * 1024 + 1 * (y 0).val = (i 0).val; omega
  | ⟨1, _⟩ => show win1_0.index t (1 : Fin 2) * 4096 + 1 * (y 1).val = (i 1).val; omega

/-- The weight block at (q, k) is the weight array at (1024 b + q, k). -/
theorem read_weight (c : Dev nD) (t : Fin cfg1.N) (y : S1024x4096.Idx) (i : S4096x4096.Idx)
    (h0 : (i 0).val = win1_3.index t (1 : Fin 2) * 1024 + (y 0).val) (h1 : (i 1).val = (y 1).val) :
    iblk1 V c 1 t y = V c main_v2_0 i := by
  obtain ⟨-, -, e0, e1, -⟩ := idx_facts t
  show V c main_v2_0 (((cfg1.win 1).blk t).view.emb y) = V c main_v2_0 i
  refine congrArg (V c main_v2_0) (funext fun a => Fin.ext ?_)
  match a with
  | ⟨0, _⟩ => show win1_1.index t (0 : Fin 2) * 1024 + 1 * (y 0).val = (i 0).val; omega
  | ⟨1, _⟩ => show win1_1.index t (1 : Fin 2) * 4096 + 1 * (y 1).val = (i 1).val; omega

/-- The scale row's block at (0, q) is the scale row at (0, 1024 b + q). -/
theorem read_scaleRow (c : Dev nD) (t : Fin cfg1.N) (y : S1x1024.Idx) (i : S1x4096.Idx)
    (h0 : (i 0).val = (y 0).val) (h1 : (i 1).val = win1_3.index t (1 : Fin 2) * 1024 + (y 1).val) :
    iblk1 V c 2 t y = V c main_v3 i := by
  obtain ⟨-, -, -, -, e0, e1, -⟩ := idx_facts t
  show V c main_v3 (((cfg1.win 2).blk t).view.emb y) = V c main_v3 i
  refine congrArg (V c main_v3) (funext fun a => Fin.ext ?_)
  match a with
  | ⟨0, _⟩ => show win1_2.index t (0 : Fin 2) * 1 + 1 * (y 0).val = (i 0).val; omega
  | ⟨1, _⟩ => show win1_2.index t (1 : Fin 2) * 1024 + 1 * (y 1).val = (i 1).val; omega

/-! ## The output -/

/-- Tokens times weight rows, rescaled per output feature, of the entry contents. -/
def product (c : Dev nD) : S8192x4096.Idx → EReal :=
  Dora.gemmScaled (V c main_v4) (V c main_v2_0) (fun o => V c main_v3 (ix2 (0 : Fin 1) o))

/-- What point t writes back is tile t of that array. -/
theorem flushed_product (c : Dev nD) (t : Fin cfg1.N) :
    (dat1 V c).flushed 3 t = ((cfg1.win 3).blk t).view.read (Elt Ideal) (product V c) := by
  show (cfg1.win 3).cut (grid1.coords t) ((dat1 V c).after 3 t) = _
  rw [after1_3]
  unfold out1_3
  rw [View.canon_unit_zero hz]
  simp only [View.ld_unit_zero (S := S1024x4096) hz, View.ld_unit_zero (S := S1x1024) hz]
  funext j
  show (k1_pay1 (F := Ideal) (iblk1 V c 0 t) (iblk1 V c 1 t) (iblk1 V c 2 t) j : EReal)
    = product V c (((cfg1.win 3).blk t).view.emb j)
  refine (Pay.tile_apply (iblk1 V c 0 t) (iblk1 V c 1 t) (iblk1 V c 2 t) j).trans ?_
  have hrow : ((((cfg1.win 3).blk t).view.emb j) 0).val = win1_3.index t (0 : Fin 2) * 1024 + (j 0).val := by
    show win1_3.index t (0 : Fin 2) * 1024 + 1 * (j 0).val = _; omega
  have hcol : ((((cfg1.win 3).blk t).view.emb j) 1).val = win1_3.index t (1 : Fin 2) * 1024 + (j 1).val := by
    show win1_3.index t (1 : Fin 2) * 1024 + 1 * (j 1).val = _; omega
  unfold product Dora.gemmScaled
  refine congrArg₂ (· * ·) (Finset.sum_congr rfl fun k _ => congrArg₂ (· * ·) ?_ ?_) ?_
  · exact read_tokens V c t (ix2 (j 0 : Fin 1024) k) _ hrow rfl
  · exact read_weight V c t (ix2 (j 1 : Fin 1024) k) _ hcol rfl
  · exact read_scaleRow V c t (ix2 (0 : Fin 1) (j 1 : Fin 1024)) _ rfl hcol

/-- An index of the output is in point t's tile iff each coordinate is in the tile's range. -/
theorem mem_blk (t : Fin cfg1.N) (i : S8192x4096.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v5).slice (win1_3.rect t)).set ↔ _
  rw [View.set_slice_whole, Rect.mem_set_unit]
  exact Iff.rfl

/-- The thirty-two tiles cover the output. -/
theorem cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, q0, q1⟩ := idx_onto ⟨(i 0).val / 1024, by omega⟩ ⟨(i 1).val / 1024, by omega⟩
  have q0' : win1_3.index t (0 : Fin 2) = (i 0).val / 1024 := q0
  have q1' : win1_3.index t (1 : Fin 2) = (i 1).val / 1024 := q1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- After the region the output is tokens times weight rows, rescaled, of the entry contents. -/
theorem product_final (c : Dev nD) : (dat1 V c).arrAt 3 cfg1.N = product V c :=
  (dat1 V c).arrAt_eq_of_cover 3 _ (fun t _ => flushed_product V c t) cover

end Cert.KernelIdeal.Region1

end
-- ==== Proof.KernelValue.lean ====
/-
  The idealized kernel program's result as ONE function of its arguments.

  The last boundary's contents are a fold through the program. Read backwards at the result buffer:
    the result is the reshape to [4, 2048, 4096] of the second region's output;
    that output is tokens times weight rows, rescaled (the second region's array), of the contents the region is
      entered with: the tokens are the reshape of x to [8192, 4096] with its float format changed (no change at the
      ideal values), the weight is the first region's weight output, the scale row is the first region's scale column
      reshaped from [4096, 1] to [1, 4096];
    the first region's outputs are the adapted weight and the scale column of ITS entry contents: the base weight and
      the low-rank pair as launched, and the magnitude vector reshaped to a column.
  Put together: the result is the reshape of the FOLDED arrangement of the layer at the arguments.
-/
import proofs.«126684_j55087250538729_2_alg».proof.Proof.KernelRun
import proofs.«126684_j55087250538729_2_alg».proof.Proof.Region0Value
import proofs.«126684_j55087250538729_2_alg».proof.Proof.Region1Value
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## Two reshapes of small shapes read at an entry -/

/-- The reshape of a vector of 4096 entries to a column reads, at (o, 0), entry o. -/
theorem toColumn_apply (v : S4096.Idx → EReal) (o : Fin 4096) :
    shapeCast S4096x1 v shapeCasts_S4096_S4096x1 (ix2 o (0 : Fin 1)) = v (ix1 o) := by
  refine shapeCast_apply v shapeCasts_S4096_S4096x1 (ix2 o (0 : Fin 1)) (ix1 o) ?_
  rewrite [Shape.rowMajor_val_one, Shape.rowMajor_val_two]
  show o.val = o.val * 1 + 0
  omega

/-- The reshape of a column of 4096 entries to a row reads, at (0, o), the column's entry (o, 0). -/
theorem toRow_apply (v : S4096x1.Idx → EReal) (o : Fin 4096) :
    shapeCast S1x4096 v shapeCasts_S4096x1_S1x4096 (ix2 (0 : Fin 1) o) = v (ix2 o (0 : Fin 1)) := by
  refine shapeCast_apply v shapeCasts_S4096x1_S1x4096 (ix2 (0 : Fin 1) o) (ix2 o (0 : Fin 1)) ?_
  rewrite [Shape.rowMajor_val_two, Shape.rowMajor_val_two]
  show o.val * 1 + 0 = 0 * 4096 + o.val
  omega

/-! ## What the first region is entered with -/

theorem entry0_base (c : Dev nD) : V1 m ρ c main_arg1 = m ((c : Thread nD τ).loc main_arg1) := by
  dsimp only [V1, W1, hostOps0]; after_results
theorem entry0_rowFactor (c : Dev nD) : V1 m ρ c main_arg2 = m ((c : Thread nD τ).loc main_arg2) := by
  dsimp only [V1, W1, hostOps0]; after_results
theorem entry0_colFactor (c : Dev nD) : V1 m ρ c main_arg3 = m ((c : Thread nD τ).loc main_arg3) := by
  dsimp only [V1, W1, hostOps0]; after_results
theorem entry0_magnitude (c : Dev nD) :
    (V1 m ρ c main_v1 : S4096x1.Idx → EReal) = shapeCast S4096x1 (m ((c : Thread nD τ).loc main_arg4)) shapeCasts_S4096_S4096x1 := by
  dsimp only [V1, W1, hostOps0]; after_results; rfl
theorem entry0_tokens (c : Dev nD) :
    (W1 m ρ c (Proc.devRef .tc main_v0) : S8192x4096.Idx → EReal)
      = shapeCast S8192x4096 (m ((c : Thread nD τ).loc main_arg0)) shapeCasts_S4x2048x4096_S8192x4096 := by
  dsimp only [W1, hostOps0]; after_results; rfl

/-! ## After the first region -/

/-- The weight output: the adapted weight of the launched base weight and low-rank pair. -/
theorem after0_weight (c : Dev nD) :
    (W2 m ρ c (Proc.devRef .tc main_v2_0) : S4096x4096.Idx → EReal)
      = Dora.adaptedMat (m ((c : Thread nD τ).loc main_arg1)) (m ((c : Thread nD τ).loc main_arg2)) (m ((c : Thread nD τ).loc main_arg3)) := by
  refine (W2_arr m ρ c 4).trans ((Region0.weight_final (V1 m ρ) c).trans ?_)
  rw [entry0_base, entry0_rowFactor, entry0_colFactor]

/-- The scale output at (o, 0): the scale of feature o from the launched arrays. -/
theorem after0_scale (c : Dev nD) (o : Fin 4096) :
    (W2 m ρ c (Proc.devRef .tc main_v2_1) : S4096x1.Idx → EReal) (ix2 o (0 : Fin 1))
      = Dora.scale (m ((c : Thread nD τ).loc main_arg1)) (m ((c : Thread nD τ).loc main_arg2)) (m ((c : Thread nD τ).loc main_arg3))
          (fun o' => m ((c : Thread nD τ).loc main_arg4) (ix1 o')) o := by
  refine (congrFun ((W2_arr m ρ c 5).trans (Region0.scale_final (V1 m ρ) c)) (ix2 o (0 : Fin 1))).trans ?_
  unfold Region0.scaleCol
  rw [entry0_base, entry0_rowFactor, entry0_colFactor, entry0_magnitude]
  exact congrArg (fun g => Dora.scale _ _ _ g o) (funext fun o' => toColumn_apply _ o')

/-- The reshaped tokens pass through the first region untouched. -/
theorem after0_tokens (c : Dev nD) :
    (W2 m ρ c (Proc.devRef .tc main_v0) : S8192x4096.Idx → EReal)
      = shapeCast S8192x4096 (m ((c : Thread nD τ).loc main_arg0)) shapeCasts_S4x2048x4096_S8192x4096 :=
  (W2_of_ne m ρ c main_v0 (by decide)).trans (entry0_tokens m ρ c)

/-! ## What the second region is entered with -/

theorem entry1_tokens (c : Dev nD) :
    (V3 m ρ c main_v4 : S8192x4096.Idx → EReal)
      = shapeCast S8192x4096 (m ((c : Thread nD τ).loc main_arg0)) shapeCasts_S4x2048x4096_S8192x4096 := by
  refine Eq.trans ?_ (after0_tokens m ρ c)
  dsimp only [V3, W3, hostOps1]; after_results; rfl

theorem entry1_weight (c : Dev nD) :
    (V3 m ρ c main_v2_0 : S4096x4096.Idx → EReal)
      = Dora.adaptedMat (m ((c : Thread nD τ).loc main_arg1)) (m ((c : Thread nD τ).loc main_arg2)) (m ((c : Thread nD τ).loc main_arg3)) := by
  refine Eq.trans ?_ (after0_weight m ρ c)
  dsimp only [V3, W3, hostOps1]; after_results

theorem entry1_scaleRow (c : Dev nD) (o : Fin 4096) :
    (V3 m ρ c main_v3 : S1x4096.Idx → EReal) (ix2 (0 : Fin 1) o)
      = Dora.scale (m ((c : Thread nD τ).loc main_arg1)) (m ((c : Thread nD τ).loc main_arg2)) (m ((c : Thread nD τ).loc main_arg3))
          (fun o' => m ((c : Thread nD τ).loc main_arg4) (ix1 o')) o := by
  have e : (V3 m ρ c main_v3 : S1x4096.Idx → EReal)
      = shapeCast S1x4096 (W2 m ρ c (Proc.devRef .tc main_v2_1) : S4096x1.Idx → EReal) shapeCasts_S4096x1_S1x4096 := by
    dsimp only [V3, W3, hostOps1]; after_results; rfl
  rw [e]
  exact (toRow_apply _ o).trans (after0_scale m ρ c o)

/-! ## The result -/

/-- The result buffer at the last boundary: the FOLDED arrangement of the layer at the arguments, reshaped. -/
theorem result_eq (c : Dev nD) :
    (W5 m ρ c (Proc.devRef .tc main_v6) : S4x2048x4096.Idx → EReal)
      = shapeCast S4x2048x4096
          (Dora.folded (shapeCast S8192x4096 (m ((c : Thread nD τ).loc main_arg0)) shapeCasts_S4x2048x4096_S8192x4096)
            (m ((c : Thread nD τ).loc main_arg1)) (m ((c : Thread nD τ).loc main_arg2)) (m ((c : Thread nD τ).loc main_arg3))
            (fun o => m ((c : Thread nD τ).loc main_arg4) (ix1 o)))
          shapeCasts_S8192x4096_S4x2048x4096 := by
  have e : (W5 m ρ c (Proc.devRef .tc main_v6) : S4x2048x4096.Idx → EReal)
      = shapeCast S4x2048x4096 (W4 m ρ c (Proc.devRef .tc main_v5) : S8192x4096.Idx → EReal) shapeCasts_S8192x4096_S4x2048x4096 := by
    dsimp only [W5, hostOps2]; after_results; rfl
  rw [e]
  refine congrArg (fun a => shapeCast S4x2048x4096 a shapeCasts_S8192x4096_S4x2048x4096) ?_
  refine (W4_arr m ρ c 3).trans ((Region1.product_final (V3 m ρ) c).trans ?_)
  unfold Region1.product Dora.folded
  rw [entry1_tokens, entry1_weight]
  exact congrArg (Dora.gemmScaled _ _) (funext fun o => entry1_scaleRow m ρ c o)

end Cert.KernelIdeal.Whole

end
-- ==== Proof.RefValue.lean ====
/-
  The idealized reference's result as a function of its arguments.

  The reference reshapes x to tokens [8192, 4096]; takes the base product (tokens against the transposed base weight),
  the low-rank path (tokens against the transposed row factor, then against the transposed column factor) and adds
  them; builds the adapted weight, its rows' Euclidean norms (squares, a row sum from zero, a square root) and the
  magnitudes over those norms; broadcasts that scale down the tokens' rows; multiplies; reshapes back. Read at an
  entry, every transposition is a swap of two coordinates and every product a sum over the contracted coordinate, so
  the array before the last reshape is the SPLIT arrangement of the layer at the arguments.
-/
import proofs.«126684_j55087250538729_2_alg».proof.Proof.Gen.ReferenceIdeal.Read
import proofs.«126684_j55087250538729_2_alg».proof.Proof.Spec

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S4x2048x4096, .f32⟩ : BufTy).Contents (Elt Ideal)) (x1 : (⟨S4096x4096, .f32⟩ : BufTy).Contents (Elt Ideal))
  (x2 : (⟨S16x4096, .f32⟩ : BufTy).Contents (Elt Ideal)) (x3 : (⟨S4096x16, .f32⟩ : BufTy).Contents (Elt Ideal))
  (x4 : (⟨S4096, .f32⟩ : BufTy).Contents (Elt Ideal))

/-- The rank-16 update at (o, k): the column factor's row o against the row factor's column k. -/
theorem update_at (o k : Fin 4096) :
    val_main_v5 (F := Ideal) x2 x3 (ix2 o k) = ∑ r : Fin 16, x3 (ix2 o r) * x2 (ix2 r k) := by
  rw [val_main_v5_apply]
  refine Finset.sum_congr rfl fun r _ => congrArg₂ (· * ·) (congrArg x3 ?_) (congrArg x2 ?_)
  · funext a; match a with | ⟨0, _⟩ => rfl | ⟨1, _⟩ => rfl
  · funext a; match a with | ⟨0, _⟩ => rfl | ⟨1, _⟩ => rfl

/-- The adapted weight at (o, k). -/
theorem adapted_at (o k : Fin 4096) :
    val_main_v6 (F := Ideal) x1 x2 x3 (ix2 o k) = Dora.adapted x1 x2 x3 o k := by
  rw [val_main_v6_apply, update_at, Ideal.addf_def]
  rfl

/-- The norm of the adapted weight's row o: the square root of the row's sum of squares, the sum taken from zero. -/
theorem norm_at (o : Fin 4096) :
    val_main_v7 (F := Ideal) x1 x2 x3 (ix1 o)
      = Ideal.sqrt (∑ k : Fin 4096, Dora.adapted x1 x2 x3 o k * Dora.adapted x1 x2 x3 o k) := by
  rw [val_main_v7_apply, val_main_call0_v1_apply, val_main_call0_cst_apply, Ideal.hostUnary_sqrt_def, Ideal.ofBits_def,
    Ideal.ofBits_zero_f32, zero_add]
  refine congrArg Ideal.sqrt (Finset.sum_congr rfl fun k _ => ?_)
  have e : idx_main_call0_v1 (ix1 o) k = ix2 o k := funext fun a => match a with | ⟨0, _⟩ => rfl | ⟨1, _⟩ => rfl
  rw [e, val_main_call0_v0_apply, adapted_at, Ideal.mulf_def]

/-- The scale of output feature o. -/
theorem scale_at (o : Fin 4096) :
    val_main_v8 (F := Ideal) x1 x2 x3 x4 (ix1 o) = Dora.scale x1 x2 x3 (fun o' => x4 (ix1 o')) o := by
  rw [val_main_v8_apply, norm_at, Ideal.hostDivf_def]
  rfl

/-- The array before the last reshape is the SPLIT arrangement at the reshaped tokens. -/
theorem stage_eq :
    val_main_v14 (F := Ideal) x0 x1 x2 x3 x4
      = Dora.split (val_main_v0 (F := Ideal) x0) x1 x2 x3 (fun o => x4 (ix1 o)) := by
  funext i
  rw [val_main_v14_apply, val_main_v11_apply, val_main_v13_apply, val_main_v12_apply, Ideal.mulf_def, Ideal.addf_def]
  have hs : val_main_v8 (F := Ideal) x1 x2 x3 x4 (idx_main_v12 (idx_main_v13 i))
      = Dora.scale x1 x2 x3 (fun o' => x4 (ix1 o')) (i 1 : Fin 4096) :=
    (congrArg (val_main_v8 (F := Ideal) x1 x2 x3 x4)
      (show idx_main_v12 (idx_main_v13 i) = @ix1 4096 (i 1) from funext fun a => match a with | ⟨0, _⟩ => rfl)).trans
      (scale_at x1 x2 x3 x4 (i 1 : Fin 4096))
  rw [hs]
  unfold Dora.split
  refine congrArg₂ (· * ·) (congrArg₂ (· + ·) ?_ ?_) rfl
  · -- the base product: tokens against the transposed base weight
    rw [val_main_v10_apply]
    refine Finset.sum_congr rfl fun k _ => congrArg₂ (· * ·) (congrArg (val_main_v0 (F := Ideal) x0) ?_) ?_
    · funext a; match a with | ⟨0, _⟩ => rfl | ⟨1, _⟩ => rfl
    · rw [val_main_v9_apply]
      exact congrArg x1 (funext fun a => match a with | ⟨0, _⟩ => rfl | ⟨1, _⟩ => rfl)
  · -- the low-rank path through the bottleneck
    rw [val_main_v4_apply]
    refine Finset.sum_congr rfl fun r _ => congrArg₂ (· * ·) ?_ ?_
    · rw [val_main_v2_apply]
      refine Finset.sum_congr rfl fun k _ => congrArg₂ (· * ·) (congrArg (val_main_v0 (F := Ideal) x0) ?_) ?_
      · funext a; match a with | ⟨0, _⟩ => rfl | ⟨1, _⟩ => rfl
      · rw [val_main_v1_apply]
        exact congrArg x2 (funext fun a => match a with | ⟨0, _⟩ => rfl | ⟨1, _⟩ => rfl)
    · rw [val_main_v3_apply]
      exact congrArg x3 (funext fun a => match a with | ⟨0, _⟩ => rfl | ⟨1, _⟩ => rfl)

/-- The reference's result: the SPLIT arrangement at the reshaped tokens, reshaped back. -/
theorem result_eq :
    val_main_v15 (F := Ideal) x0 x1 x2 x3 x4
      = shapeCast S4x2048x4096
          (Dora.split (shapeCast S8192x4096 x0 shapeCasts_S4x2048x4096_S8192x4096) x1 x2 x3 (fun o => x4 (ix1 o)))
          shapeCasts_S8192x4096_S4x2048x4096 := by
  unfold val_main_v15
  rw [stage_eq]
  rfl

end Cert.ReferenceIdeal.RefValue

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.Finite.lean ====
/-
  From the precondition to real entries.

  The precondition is one bit: the conjunction, over the five arguments, of "every entry's absolute value is below
  plus infinity". A conjunction of bits that is one has every conjunct one; and where one argument's reduced bit is
  one, every entry of that argument is a real number (the general fact about the finiteness test). Four of the five
  arguments are needed: the tokens, the base weight and the low-rank pair.
-/
import proofs.«126684_j55087250538729_2_alg».proof.Pre_finite_inputs
import proofs.«126684_j55087250538729_2_alg».proof.Proof.Spec
import proofs.«126684_j55087250538729_2_alg».proof.Proof.LibFiniteEntries
import Idealize.ShloMosaic.Lib.Affine

set_option maxRecDepth 16384

noncomputable section

namespace Cert.Dora.Pre

open Cert.Pre_finite_inputs Cert.Pre_finite_inputs.Facts Idealize.ShloMosaic Idealize.ShloMosaic.ValueIdx

variable [Cert.Pre_finite_inputs.Facts]

/-- Under the precondition the tokens, the base weight and the low-rank pair hold real numbers. -/
theorem finite_of_pre (a0 : FVec Ideal S4x2048x4096 .f32) (a1 : FVec Ideal S4096x4096 .f32) (a2 : FVec Ideal S16x4096 .f32)
    (a3 : FVec Ideal S4096x16 .f32) (a4 : FVec Ideal S4096 .f32)
    (h : Cert.Pre_finite_inputs.fn (F := Ideal) a0 a1 a2 a3 a4 = fun _ => 1#1) :
    Dora.Finite a0 ∧ Dora.Finite a1 ∧ Dora.Finite a2 ∧ Dora.Finite a3 := by
  have h0 := congrFun h ix0
  dsimp only [fn, fn_part1] at h0
  change IntOp.andi (IntOp.andi (IntOp.andi (IntOp.andi _ _) _) _) _ = 1#1 at h0
  simp only [IntOp.andi_eq_one] at h0
  obtain ⟨⟨⟨⟨h0', h1'⟩, h2'⟩, h3'⟩, -⟩ := h0
  exact ⟨Cert.LibFiniteEntries.real_entries_of_all_lt_inf a0 _ _ _ _ h0',
    Cert.LibFiniteEntries.real_entries_of_all_lt_inf a1 _ _ _ _ h1',
    Cert.LibFiniteEntries.real_entries_of_all_lt_inf a2 _ _ _ _ h2',
    Cert.LibFiniteEntries.real_entries_of_all_lt_inf a3 _ _ _ _ h3'⟩

end Cert.Dora.Pre

end
-- ==== Proof.lean ====
/-
  A weight-decomposed low-rank linear layer: a two-stage kernel against a plain reference, equal at the ideal values.

  With W the base weight [4096, 4096], B [4096, 16] and A [16, 4096] the low-rank pair, g the magnitudes [4096] and X the
  tokens (x reshaped to [8192, 4096]), write  adapted = W + B A  and  scale o = g o / norm of row o of adapted.

  The kernel program FOLDS the update into the weight: a first pipelined stage writes the adapted weight and the scale
  column, eight row blocks of 512; a second stage multiplies the tokens by the rows of the adapted weight and rescales
  each output feature, thirty-two tiles of 1024 by 1024. The reference keeps the two paths SPLIT: the base product
  X W^T plus the low-rank path (X A^T) B^T, then the same rescaling.

  The two results agree because the rescaling factor is literally the same quantity on both sides, and the two
  accumulators agree by distributivity and an exchange of two finite sums: a law of the reals. On the extended reals it
  needs the tokens, the base weight and the low-rank pair to hold real numbers, which is what the precondition says of
  them; the magnitudes, and the factor itself (which is infinite or arbitrary where a row of the adapted weight
  vanishes), are never opened.

  Proof/Spec.lean         the two arrangements and the law
  Proof/KernelRun.lean    the kernel program's run with its result kept
  Proof/Dots.lean, Proof/Payloads.lean    the kernel bodies' arithmetic at an entry
  Proof/Region0Value.lean, Proof/Region1Value.lean    each stage's output arrays, for any entry contents
  Proof/KernelValue.lean  the stages chained through the host operations: the result is the folded arrangement
  Proof/RefValue.lean     the reference's result is the split arrangement
  Proof/Finite.lean       real entries from the precondition
-/
import proofs.«126684_j55087250538729_2_alg».proof.Defs
import proofs.«126684_j55087250538729_2_alg».proof.Proof.Gen.Kernel
import proofs.«126684_j55087250538729_2_alg».proof.Proof.Gen.Kernel.Skeleton
import proofs.«126684_j55087250538729_2_alg».proof.Proof.Gen.Kernel.Launch
import proofs.«126684_j55087250538729_2_alg».proof.Proof.Gen.Kernel.Points
import proofs.«126684_j55087250538729_2_alg».proof.Proof.Gen.Kernel.Frame
import proofs.«126684_j55087250538729_2_alg».proof.Proof.Gen.KernelIdeal
import proofs.«126684_j55087250538729_2_alg».proof.Proof.Gen.KernelIdeal.Skeleton
import proofs.«126684_j55087250538729_2_alg».proof.Proof.Gen.KernelIdeal.Launch
import proofs.«126684_j55087250538729_2_alg».proof.Proof.Gen.KernelIdeal.Points
import proofs.«126684_j55087250538729_2_alg».proof.Proof.Gen.KernelIdeal.Frame
import proofs.«126684_j55087250538729_2_alg».proof.Proof.Gen.ReferenceIdeal
import proofs.«126684_j55087250538729_2_alg».proof.Proof.Gen.ReferenceIdeal.Read
import proofs.«126684_j55087250538729_2_alg».proof.Proof.Gen.Pre_finite_inputs
import proofs.«126684_j55087250538729_2_alg».proof.Proof.KernelValue
import proofs.«126684_j55087250538729_2_alg».proof.Proof.RefValue
import proofs.«126684_j55087250538729_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the folded arrangement of the layer, reshaped: the
    kernel program by its two stages, the reference at the split arrangement, which is the folded one where the
    precondition makes the tokens, the base weight and the low-rank pair real. -/
theorem algebraic : Cert.algebraic_KernelIdeal_ReferenceIdeal := by
  intro m ρ m' ρ' hpre hagree
  refine ⟨fun c => shapeCast Cert.KernelIdeal.S4x2048x4096
      (Dora.folded
        (shapeCast Cert.KernelIdeal.S8192x4096 (m ((c : Thread Cert.KernelIdeal.nD Cert.KernelIdeal.τ).loc Cert.KernelIdeal.main_arg0))
          Cert.KernelIdeal.Gen.shapeCasts_S4x2048x4096_S8192x4096)
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (fun o => m ((c : Thread Cert.KernelIdeal.nD Cert.KernelIdeal.τ).loc Cert.KernelIdeal.main_arg4) (ix1 o)))
      Cert.KernelIdeal.Gen.shapeCasts_S8192x4096_S4x2048x4096, ?_, ?_⟩
  · exact (θ_run Cert.KernelIdeal.defs _ _).mono
      (fun r h c => ⟨(h c).1.trans (Cert.KernelIdeal.Whole.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v15_eq (F := Ideal) _ _ _ _ _).trans ?_
    rw [(hagree c).1, (hagree c).2.1, (hagree c).2.2.1, (hagree c).2.2.2.1, (hagree c).2.2.2.2]
    refine (Cert.ReferenceIdeal.RefValue.result_eq _ _ _ _ _).trans ?_
    obtain ⟨f0, f1, f2, f3⟩ := Cert.Dora.Pre.finite_of_pre _ _ _ _ _ (hpre c)
    exact congrArg (fun a => shapeCast Cert.KernelIdeal.S4x2048x4096 a Cert.KernelIdeal.Gen.shapeCasts_S8192x4096_S4x2048x4096)
      (Dora.folded_eq_split _ _ _ _ _ (fun i => f0 _) f1 f2 f3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
